-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_cst_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_cst_11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_cst_11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S16384x64 : Shape := ⟨2, ![16384, 64]⟩
abbrev S2x200000 : Shape := ⟨2, ![2, 200000]⟩
abbrev S200000 : Shape := ⟨1, ![200000]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S200000 : S_.BroadcastsInDim S200000 (![] : Fin 0 → Fin S200000.rank)
  reducesTo_S200000_S_d0 : S200000.ReducesTo [0] S_

variable [Facts]

def fn {F : FTy → Type} [FloatOps F] (main_arg0 : FVec F S8192x64 .f32) (main_arg1 : FVec F S16384x64 .f32) (main_arg2 : IVec S2x200000 32) (main_arg3 : FVec F S200000 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S200000 .f32 := Host.absf main_arg3
  let main_cst_2 : FVec F S_ .f32 := constant S_ .f32 0x7F800000#32
  let main_v10 : FVec F S200000 .f32 := broadcastInDim S200000 ![] bcast_S_S200000 main_cst_2
  let main_v11 : IVec S200000 1 := cmpf .olt main_v9 main_v10
  let main_c_3 : IVec S_ 1 := constantI S_ 1 1#1
  let main_v12 : IVec S_ 1 := (fun x v => Host.reduce IntOp.andi x v reducesTo_S200000_S_d0 h_S_) main_v11 main_c_3
  let main_v13 : IVec S_ 1 := andi main_v8 main_v12
  main_v13
-- ==== Kernel.lean ====
abbrev S8192x64 : Shape := ⟨2, ![8192, 64]⟩
abbrev S16384x64 : Shape := ⟨2, ![16384, 64]⟩
abbrev S2x200000 : Shape := ⟨2, ![2, 200000]⟩
abbrev S200000 : Shape := ⟨1, ![200000]⟩
abbrev S_ : Shape := ⟨0, ![]⟩
abbrev S8192 : Shape := ⟨1, ![8192]⟩
abbrev S1x200000 : Shape := ⟨2, ![1, 200000]⟩
abbrev S200000x1 : Shape := ⟨2, ![200000, 1]⟩
abbrev S16384 : Shape := ⟨1, ![16384]⟩
abbrev S8192x1 : Shape := ⟨2, ![8192, 1]⟩
abbrev S16384x1 : Shape := ⟨2, ![16384, 1]⟩
abbrev S8192x16384 : Shape := ⟨2, ![8192, 16384]⟩
abbrev S1024x64 : Shape := ⟨2, ![1024, 64]⟩
abbrev S2048x64 : Shape := ⟨2, ![2048, 64]⟩
abbrev S1024x1 : Shape := ⟨2, ![1024, 1]⟩
abbrev S2048x1 : Shape := ⟨2, ![2048, 1]⟩
abbrev S1024x2048 : Shape := ⟨2, ![1024, 2048]⟩
abbrev S200000x2 : Shape := ⟨2, ![200000, 2]⟩

abbrev nBuf : Space → Nat
  | .hbm => 64
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S16384x64, .f32⟩
  | .hbm, ⟨2, _⟩ => ⟨S2x200000, .i32⟩
  | .hbm, ⟨3, _⟩ => ⟨S200000, .f32⟩
  | .hbm, ⟨4, _⟩ => ⟨S_, .i1⟩
  | .hbm, ⟨5, _⟩ => ⟨S8192, .i1⟩
  | .hbm, ⟨6, _⟩ => ⟨S1x200000, .i32⟩
  | .hbm, ⟨7, _⟩ => ⟨S200000, .i32⟩
  | .hbm, ⟨8, _⟩ => ⟨S_, .i32⟩
  | .hbm, ⟨9, _⟩ => ⟨S200000, .i32⟩
  | .hbm, ⟨10, _⟩ => ⟨S200000, .i1⟩
  | .hbm, ⟨11, _⟩ => ⟨S_, .i32⟩
  | .hbm, ⟨12, _⟩ => ⟨S200000, .i32⟩
  | .hbm, ⟨13, _⟩ => ⟨S200000, .i32⟩
  | .hbm, ⟨14, _⟩ => ⟨S200000, .i32⟩
  | .hbm, ⟨15, _⟩ => ⟨S200000x1, .i32⟩
  | .hbm, ⟨16, _⟩ => ⟨S_, .i1⟩
  | .hbm, ⟨17, _⟩ => ⟨S200000, .i1⟩
  | .hbm, ⟨18, _⟩ => ⟨S8192, .i1⟩
  | .hbm, ⟨19, _⟩ => ⟨S_, .i1⟩
  | .hbm, ⟨20, _⟩ => ⟨S16384, .i1⟩
  | .hbm, ⟨21, _⟩ => ⟨S1x200000, .i32⟩
  | .hbm, ⟨22, _⟩ => ⟨S200000, .i32⟩
  | .hbm, ⟨23, _⟩ => ⟨S_, .i32⟩
  | .hbm, ⟨24, _⟩ => ⟨S200000, .i32⟩
  | .hbm, ⟨25, _⟩ => ⟨S200000, .i1⟩
  | .hbm, ⟨26, _⟩ => ⟨S_, .i32⟩
  | .hbm, ⟨27, _⟩ => ⟨S200000, .i32⟩
  | .hbm, ⟨28, _⟩ => ⟨S200000, .i32⟩
  | .hbm, ⟨29, _⟩ => ⟨S200000, .i32⟩
  | .hbm, ⟨30, _⟩ => ⟨S200000x1, .i32⟩
  | .hbm, ⟨31, _⟩ => ⟨S_, .i1⟩
  | .hbm, ⟨32, _⟩ => ⟨S200000, .i1⟩
  | .hbm, ⟨33, _⟩ => ⟨S16384, .i1⟩
  | .hbm, ⟨34, _⟩ => ⟨S8192, .f32⟩
  | .hbm, ⟨35, _⟩ => ⟨S8192x1, .f32⟩
  | .hbm, ⟨36, _⟩ => ⟨S16384, .f32⟩
  | .hbm, ⟨37, _⟩ => ⟨S16384x1, .f32⟩
  | .hbm, ⟨38, _⟩ => ⟨S8192x16384, .f32⟩
  | .hbm, ⟨39, _⟩ => ⟨S_, .f32⟩
  | .hbm, ⟨40, _⟩ => ⟨S8192x16384, .f32⟩
  | .hbm, ⟨41, _⟩ => ⟨S1x200000, .i32⟩
  | .hbm, ⟨42, _⟩ => ⟨S200000, .i32⟩
  | .hbm, ⟨43, _⟩ => ⟨S1x200000, .i32⟩
  | .hbm, ⟨44, _⟩ => ⟨S200000, .i32⟩
  | .hbm, ⟨45, _⟩ => ⟨S_, .i32⟩
  | .hbm, ⟨46, _⟩ => ⟨S200000, .i32⟩
  | .hbm, ⟨47, _⟩ => ⟨S200000, .i1⟩
  | .hbm, ⟨48, _⟩ => ⟨S_, .i32⟩
  | .hbm, ⟨49, _⟩ => ⟨S200000, .i32⟩
  | .hbm, ⟨50, _⟩ => ⟨S200000, .i32⟩
  | .hbm, ⟨51, _⟩ => ⟨S200000, .i32⟩
  | .hbm, ⟨52, _⟩ => ⟨S_, .i32⟩
  | .hbm, ⟨53, _⟩ => ⟨S200000, .i32⟩
  | .hbm, ⟨54, _⟩ => ⟨S200000, .i1⟩
  | .hbm, ⟨55, _⟩ => ⟨S_, .i32⟩
  | .hbm, ⟨56, _⟩ => ⟨S200000, .i32⟩
  | .hbm, ⟨57, _⟩ => ⟨S200000, .i32⟩
  | .hbm, ⟨58, _⟩ => ⟨S200000, .i32⟩
  | .hbm, ⟨59, _⟩ => ⟨S200000x1, .i32⟩
  | .hbm, ⟨60, _⟩ => ⟨S200000x1, .i32⟩
  | .hbm, ⟨61, _⟩ => ⟨S200000x2, .i32⟩
  | .hbm, ⟨62, _⟩ => ⟨S8192x16384, .f32⟩
  | .hbm, ⟨63, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S2048x64, .f32⟩
  | .local _ .vmem, ⟨4, _⟩ => ⟨S1024x1, .f32⟩
  | .local _ .vmem, ⟨5, _⟩ => ⟨S1024x1, .f32⟩
  | .local _ .vmem, ⟨6, _⟩ => ⟨S2048x1, .f32⟩
  | .local _ .vmem, ⟨7, _⟩ => ⟨S2048x1, .f32⟩
  | .local _ .vmem, ⟨8, _⟩ => ⟨S1024x2048, .f32⟩
  | .local _ .vmem, ⟨9, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_c_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8192 : S_.BroadcastsInDim S8192 (![] : Fin 0 → Fin S8192.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S_S16384 : S_.BroadcastsInDim S16384 (![] : Fin 0 → Fin S16384.rank)
  slices_S2x200000_S1x200000_1_0 : S2x200000.Slices ![1, 0] S1x200000
  shapeCasts_S8192_S8192x1 : S8192.ShapeCasts S8192x1
  shapeCasts_S16384_S16384x1 : S16384.ShapeCasts S16384x1
  inb_S1024x64_S1024x64_0_0 : ∀ a, (![0, 0] : Fin 2 → Nat) a + S1024x64.size a ≤ S1024x64.size a
  h_S1024x64 : 0 < S1024x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S2048x64_S2048x64_0_0 : ∀ a, (![0, 0] : Fin 2 → Nat) a + S2048x64.size a ≤ S2048x64.size a
  h_S2048x64 : 0 < S2048x64.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  bcast_S_S8192x16384 : S_.BroadcastsInDim S8192x16384 (![] : Fin 0 → Fin S8192x16384.rank)
  concatenates_S200000x1_S200000x1_S200000x2_d1 : Shape.Concatenates [S200000x1, S200000x1] S200000x2 1
  scatter_S8192_S200000x1_S200000_n_0_0_1_wf : ScatterDims.WF S8192 S200000x1 S200000 [] [0] [0] 1
  scatter_S16384_S200000x1_S200000_n_0_0_1_wf : ScatterDims.WF S16384 S200000x1 S200000 [] [0] [0] 1
  dot_S1024x64_S2048x64_S1024x2048_1_1_0_0_n_n_wf : DotDims.WF S1024x64 S2048x64 S1024x2048 [1] [1] [0] [0] [] []
  scatter_S8192x16384_S200000x2_S200000_n_01_01_1_wf : ScatterDims.WF S8192x16384 S200000x2 S200000 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .f32 = 32 ∨ (Rect.block (s := S16384x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x16384.size a
  hwx0_4 : ∀ i : grid0.Coords, EltTy.bits .f32 = 32 ∨ (Rect.block (s := S8192x16384) S1024x2048.size (cc0_transform_4 i) (hinb0_4 i)).WholeWords (EltTy.packing .f32)

variable [Facts₀]

def scatter_S8192_S200000x1_S200000_n_0_0_1 : ScatterDims S8192 S200000x1 S200000 where
  updateWindowDims := []
  insertedWindowDims := [0]
  scatterDimsToOperandDims := [0]
  indexVectorDim := 1
  wf := scatter_S8192_S200000x1_S200000_n_0_0_1_wf
def scatter_S16384_S200000x1_S200000_n_0_0_1 : ScatterDims S16384 S200000x1 S200000 where
  updateWindowDims := []
  insertedWindowDims := [0]
  scatterDimsToOperandDims := [0]
  indexVectorDim := 1
  wf := scatter_S16384_S200000x1_S200000_n_0_0_1_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def scatter_S8192x16384_S200000x2_S200000_n_01_01_1 : ScatterDims S8192x16384 S200000x2 S200000 where
  updateWindowDims := []
  insertedWindowDims := [0, 1]
  scatterDimsToOperandDims := [0, 1]
  indexVectorDim := 1
  wf := scatter_S8192x16384_S200000x2_S200000_n_01_01_1_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S16384x64 : Shape := ⟨2, ![16384, 64]⟩
abbrev S2x200000 : Shape := ⟨2, ![2, 200000]⟩
abbrev S200000 : Shape := ⟨1, ![200000]⟩
abbrev S_ : Shape := ⟨0, ![]⟩
abbrev S8192 : Shape := ⟨1, ![8192]⟩
abbrev S1x200000 : Shape := ⟨2, ![1, 200000]⟩
abbrev S200000x1 : Shape := ⟨2, ![200000, 1]⟩
abbrev S16384 : Shape := ⟨1, ![16384]⟩
abbrev S8192x1 : Shape := ⟨2, ![8192, 1]⟩
abbrev S16384x1 : Shape := ⟨2, ![16384, 1]⟩
abbrev S8192x16384 : Shape := ⟨2, ![8192, 16384]⟩
abbrev S200000x2 : Shape := ⟨2, ![200000, 2]⟩

abbrev nBuf : Space → Nat
  | .hbm => 68
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S16384x64, .f32⟩
  | .hbm, ⟨2, _⟩ => ⟨S2x200000, .i32⟩
  | .hbm, ⟨3, _⟩ => ⟨S200000, .f32⟩
  | .hbm, ⟨4, _⟩ => ⟨S_, .i1⟩
  | .hbm, ⟨5, _⟩ => ⟨S8192, .i1⟩
  | .hbm, ⟨6, _⟩ => ⟨S1x200000, .i32⟩
  | .hbm, ⟨7, _⟩ => ⟨S200000, .i32⟩
  | .hbm, ⟨8, _⟩ => ⟨S_, .i32⟩
  | .hbm, ⟨9, _⟩ => ⟨S200000, .i32⟩
  | .hbm, ⟨10, _⟩ => ⟨S200000, .i1⟩
  | .hbm, ⟨11, _⟩ => ⟨S_, .i32⟩
  | .hbm, ⟨12, _⟩ => ⟨S200000, .i32⟩
  | .hbm, ⟨13, _⟩ => ⟨S200000, .i32⟩
  | .hbm, ⟨14, _⟩ => ⟨S200000, .i32⟩
  | .hbm, ⟨15, _⟩ => ⟨S200000x1, .i32⟩
  | .hbm, ⟨16, _⟩ => ⟨S_, .i1⟩
  | .hbm, ⟨17, _⟩ => ⟨S200000, .i1⟩
  | .hbm, ⟨18, _⟩ => ⟨S8192, .i1⟩
  | .hbm, ⟨19, _⟩ => ⟨S_, .i1⟩
  | .hbm, ⟨20, _⟩ => ⟨S16384, .i1⟩
  | .hbm, ⟨21, _⟩ => ⟨S1x200000, .i32⟩
  | .hbm, ⟨22, _⟩ => ⟨S200000, .i32⟩
  | .hbm, ⟨23, _⟩ => ⟨S_, .i32⟩
  | .hbm, ⟨24, _⟩ => ⟨S200000, .i32⟩
  | .hbm, ⟨25, _⟩ => ⟨S200000, .i1⟩
  | .hbm, ⟨26, _⟩ => ⟨S_, .i32⟩
  | .hbm, ⟨27, _⟩ => ⟨S200000, .i32⟩
  | .hbm, ⟨28, _⟩ => ⟨S200000, .i32⟩
  | .hbm, ⟨29, _⟩ => ⟨S200000, .i32⟩
  | .hbm, ⟨30, _⟩ => ⟨S200000x1, .i32⟩
  | .hbm, ⟨31, _⟩ => ⟨S_, .i1⟩
  | .hbm, ⟨32, _⟩ => ⟨S200000, .i1⟩
  | .hbm, ⟨33, _⟩ => ⟨S16384, .i1⟩
  | .hbm, ⟨34, _⟩ => ⟨S8192x1, .i1⟩
  | .hbm, ⟨35, _⟩ => ⟨S8192x1, .f32⟩
  | .hbm, ⟨36, _⟩ => ⟨S8192x64, .f32⟩
  | .hbm, ⟨37, _⟩ => ⟨S8192x64, .f32⟩
  | .hbm, ⟨38, _⟩ => ⟨S16384x1, .i1⟩
  | .hbm, ⟨39, _⟩ => ⟨S16384x1, .f32⟩
  | .hbm, ⟨40, _⟩ => ⟨S16384x64, .f32⟩
  | .hbm, ⟨41, _⟩ => ⟨S16384x64, .f32⟩
  | .hbm, ⟨42, _⟩ => ⟨S8192x16384, .f32⟩
  | .hbm, ⟨43, _⟩ => ⟨S_, .f32⟩
  | .hbm, ⟨44, _⟩ => ⟨S8192x16384, .f32⟩
  | .hbm, ⟨45, _⟩ => ⟨S1x200000, .i32⟩
  | .hbm, ⟨46, _⟩ => ⟨S200000, .i32⟩
  | .hbm, ⟨47, _⟩ => ⟨S1x200000, .i32⟩
  | .hbm, ⟨48, _⟩ => ⟨S200000, .i32⟩
  | .hbm, ⟨49, _⟩ => ⟨S_, .i32⟩
  | .hbm, ⟨50, _⟩ => ⟨S200000, .i32⟩
  | .hbm, ⟨51, _⟩ => ⟨S200000, .i1⟩
  | .hbm, ⟨52, _⟩ => ⟨S_, .i32⟩
  | .hbm, ⟨53, _⟩ => ⟨S200000, .i32⟩
  | .hbm, ⟨54, _⟩ => ⟨S200000, .i32⟩
  | .hbm, ⟨55, _⟩ => ⟨S200000, .i32⟩
  | .hbm, ⟨56, _⟩ => ⟨S_, .i32⟩
  | .hbm, ⟨57, _⟩ => ⟨S200000, .i32⟩
  | .hbm, ⟨58, _⟩ => ⟨S200000, .i1⟩
  | .hbm, ⟨59, _⟩ => ⟨S_, .i32⟩
  | .hbm, ⟨60, _⟩ => ⟨S200000, .i32⟩
  | .hbm, ⟨61, _⟩ => ⟨S200000, .i32⟩
  | .hbm, ⟨62, _⟩ => ⟨S200000, .i32⟩
  | .hbm, ⟨63, _⟩ => ⟨S200000x1, .i32⟩
  | .hbm, ⟨64, _⟩ => ⟨S200000x1, .i32⟩
  | .hbm, ⟨65, _⟩ => ⟨S200000x2, .i32⟩
  | .hbm, ⟨66, _⟩ => ⟨S8192x16384, .f32⟩
  | .hbm, ⟨67, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_c_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S_S16384 : S_.BroadcastsInDim S16384 (![] : Fin 0 → Fin S16384.rank)
  slices_S2x200000_S1x200000_1_0 : S2x200000.Slices ![1, 0] S1x200000
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S_S8192x16384 : S_.BroadcastsInDim S8192x16384 (![] : Fin 0 → Fin S8192x16384.rank)
  concatenates_S200000x1_S200000x1_S200000x2_d1 : Shape.Concatenates [S200000x1, S200000x1] S200000x2 1
  scatter_S8192_S200000x1_S200000_n_0_0_1_wf : ScatterDims.WF S8192 S200000x1 S200000 [] [0] [0] 1
  scatter_S16384_S200000x1_S200000_n_0_0_1_wf : ScatterDims.WF S16384 S200000x1 S200000 [] [0] [0] 1
  dot_S8192x64_S16384x64_S8192x16384_1_1_0_0_n_n_wf : DotDims.WF S8192x64 S16384x64 S8192x16384 [1] [1] [0] [0] [] []
  scatter_S8192x16384_S200000x2_S200000_n_01_01_1_wf : ScatterDims.WF S8192x16384 S200000x2 S200000 [] [0, 1] [0, 1] 1

variable [Facts₀]

def scatter_S8192_S200000x1_S200000_n_0_0_1 : ScatterDims S8192 S200000x1 S200000 where
  updateWindowDims := []
  insertedWindowDims := [0]
  scatterDimsToOperandDims := [0]
  indexVectorDim := 1
  wf := scatter_S8192_S200000x1_S200000_n_0_0_1_wf
def scatter_S16384_S200000x1_S200000_n_0_0_1 : ScatterDims S16384 S200000x1 S200000 where
  updateWindowDims := []
  insertedWindowDims := [0]
  scatterDimsToOperandDims := [0]
  indexVectorDim := 1
  wf := scatter_S16384_S200000x1_S200000_n_0_0_1_wf
def dot_S8192x64_S16384x64_S8192x16384_1_1_0_0_n_n : DotDims S8192x64 S16384x64 S8192x16384 where
  lhsContracting := [1]
  rhsContracting := [1]
  lhsNonContracting := [0]
  rhsNonContracting := [0]
  lhsBatch := []
  rhsBatch := []
  wf := dot_S8192x64_S16384x64_S8192x16384_1_1_0_0_n_n_wf
def scatter_S8192x16384_S200000x2_S200000_n_01_01_1 : ScatterDims S8192x16384 S200000x2 S200000 where
  updateWindowDims := []
  insertedWindowDims := [0, 1]
  scatterDimsToOperandDims := [0, 1]
  indexVectorDim := 1
  wf := scatter_S8192x16384_S200000x2_S200000_n_01_01_1_wf

class Facts : Prop extends Facts₀ where

variable [Facts]
-- ==== Proof.Spec.lean ====
/-
  The masked Gram matrix, as one function of its arguments.

  A user row `p` of an [8192, 64] matrix `x` and an item row `q` of a [16384, 64] matrix `y` are each switched on or
  off as a whole by a one-bit row mask (`μ` over the 8192 users, `ν` over the 16384 items; a bit read as the number
  0 or 1). Entry (p, q) of the result is the inner product, over the 64 hidden coordinates, of the two masked rows:

      pred x y μ ν (p, q) = ∑ k, (x (p, k) · [μ p]) · (y (q, k) · [ν q]).

  Both programs compute exactly this sum, factor by factor in this order, so no law of the extended reals beyond the
  reading of each operation is needed to join them — in particular nothing that would ask the inputs to be finite.
-/
import Idealize.ShloMosaic.PureOps.Ideal
import Idealize.ShloMosaic.Lib.ValueIdx

noncomputable section

open scoped BigOperators

namespace Cert.MaskedGram

open Idealize.ShloMosaic Idealize.ShloMosaic.ValueIdx

/-- A mask bit as an extended real: 0 or 1. -/
abbrev bit (b : BitVec 1) : EReal := FloatOps.uitofp (F := Ideal) .f32 b

/-- Entry (p, q): the inner product of user row `p` and item row `q`, each scaled by its mask bit. -/
def entry (x : FVec Ideal ⟨2, ![8192, 64]⟩ .f32) (y : FVec Ideal ⟨2, ![16384, 64]⟩ .f32)
    (μ : IVec ⟨1, ![8192]⟩ 1) (ν : IVec ⟨1, ![16384]⟩ 1) (p : Fin 8192) (q : Fin 16384) : EReal :=
  ∑ k : Fin 64, (x (ix2 p k) * bit (μ (ix1 p))) * (y (ix2 q k) * bit (ν (ix1 q)))

/-- The whole [8192, 16384] array, index by index. -/
def pred (x : FVec Ideal ⟨2, ![8192, 64]⟩ .f32) (y : FVec Ideal ⟨2, ![16384, 64]⟩ .f32)
    (μ : IVec ⟨1, ![8192]⟩ 1) (ν : IVec ⟨1, ![16384]⟩ 1) : FVec Ideal ⟨2, ![8192, 16384]⟩ .f32 :=
  fun i => entry x y μ ν (i 0) (i 1)

theorem pred_apply (x : FVec Ideal ⟨2, ![8192, 64]⟩ .f32) (y : FVec Ideal ⟨2, ![16384, 64]⟩ .f32)
    (μ : IVec ⟨1, ![8192]⟩ 1) (ν : IVec ⟨1, ![16384]⟩ 1) (p : Fin 8192) (q : Fin 16384) :
    pred x y μ ν (ix2 p q) = entry x y μ ν p q := rfl

end Cert.MaskedGram

end
-- ==== Proof.RefPred.lean ====
/-
  The reference's first result is the masked Gram matrix.

  The reference scatters `true` into a row mask for each of the two index rows, turns each mask into a column of
  0/1 numbers, broadcasts it along the 64 hidden coordinates, scales the two matrices by it, and contracts the two
  scaled matrices along their hidden coordinate. Read at (p, q), one operation at a time, that is the sum over k of
  (x (p, k) · [μ p]) · (y (q, k) · [ν q]) with μ, ν the two scattered masks.
-/
import proofs.«171323_j6665789243440_1_alg».proof.Proof.Gen.ReferenceIdeal.Read
import proofs.«171323_j6665789243440_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The contraction stage, index by index, is `pred` of the two matrices and the two scattered masks. -/
theorem pred_eq (x0 : (⟨S8192x64, .f32⟩ : BufTy).Contents (Elt Ideal)) (x1 : (⟨S16384x64, .f32⟩ : BufTy).Contents (Elt Ideal))
    (x2 : (⟨S2x200000, .i32⟩ : BufTy).Contents (Elt Ideal)) :
    val_main_v30 (F := Ideal) x0 x1 x2
      = Cert.MaskedGram.pred x0 x1 (val_main_v10 (F := Ideal) x2) (val_main_v21 (F := Ideal) x2) := by
  funext i
  obtain ⟨p, q, rfl⟩ : ∃ (p : Fin 8192) (q : Fin 16384), i = ix2 p q := ⟨i 0, i 1, eq_ix2 i⟩
  rw [val_main_v30_apply, Cert.MaskedGram.pred_apply]
  unfold Cert.MaskedGram.entry
  refine Finset.sum_congr rfl fun k _ => ?_
  have el : lidx_main_v30 (ix2 p q) k = ix2 p k :=
    funext fun a => Fin.ext (by match a with | ⟨0, _⟩ => rfl | ⟨1, _⟩ => rfl)
  have er : ridx_main_v30 (ix2 p q) k = ix2 q k :=
    funext fun a => Fin.ext (by match a with | ⟨0, _⟩ => rfl | ⟨1, _⟩ => rfl)
  have eu : idx_main_v22 (idx_main_v24 (ix2 p k)) = ix1 p :=
    funext fun a => Fin.ext (by match a with | ⟨0, _⟩ => rfl)
  have ei : idx_main_v26 (idx_main_v28 (ix2 q k)) = ix1 q :=
    funext fun a => Fin.ext (by match a with | ⟨0, _⟩ => rfl)
  rw [el, er, val_main_v25_apply, val_main_v24_apply, val_main_v23_apply, val_main_v22_apply,
    val_main_v29_apply, val_main_v28_apply, val_main_v27_apply, val_main_v26_apply, eu, ei]
  rfl

end Cert.ReferenceIdeal.RefValue

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.Payload.lean ====
/-
  What the kernel body computes at one grid point, entry by entry.

  The body holds a [1024, 64] block `xu` of user rows with its [1024, 1] column `cu` of mask values, and a [2048, 64]
  block `xi` of item rows with its [2048, 1] column `ci`. It scales every row by its column entry (the column
  broadcast along the 64 hidden coordinates), changes the float format (no change of value on the extended reals),
  and multiplies the first scaled block by the TRANSPOSE of the second into a zero accumulator: both blocks are
  contracted along their hidden coordinate. So entry (p, q) of the [1024, 2048] result is

      ∑ k, (xu (p, k) · cu (p, 0)) · (xi (q, k) · ci (q, 0)).
-/
import proofs.«171323_j6665789243440_1_alg».proof.Proof.Gen.KernelIdeal.Skeleton
import proofs.«171323_j6665789243440_1_alg».proof.Proof.LibMatmulRows
import proofs.«171323_j6665789243440_1_alg».proof.Proof.LibKeepdims
import Idealize.ShloMosaic.Lib.Pipeline.Value
import Idealize.ShloMosaic.Lib.ValueIdx

noncomputable section

open scoped BigOperators

namespace Cert.KernelIdeal.BlockProduct

open Cert.KernelIdeal Cert.KernelIdeal.Gen Idealize.ShloMosaic Idealize.ShloMosaic.ValueIdx

/-- A block of rows scaled by its column, after the change of format, at (p, k): the row entry times the
    column's entry in row `p`. -/
theorem scaledRows_apply {a : Nat} (x : FVec Ideal ⟨2, ![a, 64]⟩ .f32) (col : FVec Ideal ⟨2, ![a, 1]⟩ .f32)
    (hc : (⟨2, ![a, 1]⟩ : Shape).ShapeCasts ⟨2, ![a, 1]⟩) (hb : (⟨2, ![a, 1]⟩ : Shape).Broadcasts ⟨2, ![a, 64]⟩)
    (hlt : FTy.bits .bf16 < FTy.bits .f32) (p : Fin a) (k : Fin 64) :
    (truncf .bf16 (mulf x (broadcastTo ⟨2, ![a, 64]⟩ (shapeCast ⟨2, ![a, 1]⟩ col hc) hb)) hlt : FVec Ideal ⟨2, ![a, 64]⟩ .bf16) (ix2 p k)
      = x (ix2 p k) * col (ix2 p (0 : Fin 1)) := by
  show x (ix2 p k) * broadcastTo ⟨2, ![a, 64]⟩ (shapeCast ⟨2, ![a, 1]⟩ col hc) hb (ix2 p k) = _
  rw [Cert.Lib.Keepdims.bcastCol_apply, shapeCast_self]

/-- The body's one stored value at entry (p, q): the inner product of scaled user row `p` and scaled item row `q`. -/
theorem pay_apply (xu : Vec Ideal S1024x64 .f32) (cu : Vec Ideal S1024x1 .f32) (xi : Vec Ideal S2048x64 .f32)
    (ci : Vec Ideal S2048x1 .f32) (p : Fin 1024) (q : Fin 2048) :
    k0_pay1 (F := Ideal) xu cu xi ci (ix2 p q)
      = ∑ k : Fin 64, (xu (ix2 p k) * cu (ix2 p (0 : Fin 1))) * (xi (ix2 q k) * ci (ix2 q (0 : Fin 1))) := by
  refine (Cert.LibMatmulRows.matmul_zero_apply (M := 1024) (K := 64) (N := 2048)
    dot_S1024x64_S2048x64_S1024x2048_1_1_0_0_n_n_wf none
    (truncf .bf16 (mulf xu (broadcastTo S1024x64 (shapeCast S1024x1 cu shapeCasts_S1024x1_S1024x1) broadcasts_S1024x1_S1024x64)) bitsLt_bf16_f32)
    (truncf .bf16 (mulf xi (broadcastTo S2048x64 (shapeCast S2048x1 ci shapeCasts_S2048x1_S2048x1) broadcasts_S2048x1_S2048x64)) bitsLt_bf16_f32)
    p q).trans ?_
  refine Finset.sum_congr rfl fun k _ => ?_
  exact congrArg₂ (· * ·) (scaledRows_apply xu cu _ _ _ p k) (scaledRows_apply xi ci _ _ _ q k)

end Cert.KernelIdeal.BlockProduct

end
-- ==== Proof.Masks.lean ====
/-
  The two mask columns as the kernel's region finds them.

  Before the region the host builds, from the two rows of the index array, a one-bit mask over the 8192 users and one
  over the 16384 items (a scatter of `true` at every listed row, negative rows counted from the end), reads each bit
  as the number 0 or 1, and reshapes each vector into a column: [8192] → [8192, 1] and [16384] → [16384, 1]. These
  two columns are what the region's third and fourth windows stage. The masks are, operation for operation, the
  ones the reference scatters, so they are named here by the reference's own stages.
-/
import proofs.«171323_j6665789243440_1_alg».proof.Proof.Gen.KernelIdeal.Frame
import proofs.«171323_j6665789243440_1_alg».proof.Proof.Gen.ReferenceIdeal.Read
import proofs.«171323_j6665789243440_1_alg».proof.Proof.LibKeepdims
import proofs.«171323_j6665789243440_1_alg».proof.Proof.Spec
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The user mask of an index array: bit `p` is set iff user `p` is listed in the array's first row. -/
abbrev userMask (x2 : IVec S2x200000 32) : IVec S8192 1 := Cert.ReferenceIdeal.Read.val_main_v10 (F := Ideal) x2

/-- The item mask: bit `q` is set iff item `q` is listed in the array's second row. -/
abbrev itemMask (x2 : IVec S2x200000 32) : IVec S16384 1 := Cert.ReferenceIdeal.Read.val_main_v21 (F := Ideal) x2

/-- The user column the region stages: the user mask's bits as numbers, one per row. -/
theorem userCol (c : Dev nD) :
    (V m c main_v23 : S8192x1.Idx → Ideal .f32)
      = shapeCast S8192x1 (uitofp (F := Ideal) .f32 (userMask (m ((c : Thread nD τ).loc main_arg2)))) shapeCasts_S8192_S8192x1 := by
  show StableHlo.after hostOps0 (fun b => m (c, b)) (Proc.devRef .tc main_v23) = _
  after_results_simp
  rfl

/-- The item column the region stages: the item mask's bits as numbers, one per row. -/
theorem itemCol (c : Dev nD) :
    (V m c main_v25 : S16384x1.Idx → Ideal .f32)
      = shapeCast S16384x1 (uitofp (F := Ideal) .f32 (itemMask (m ((c : Thread nD τ).loc main_arg2)))) shapeCasts_S16384_S16384x1 := by
  show StableHlo.after hostOps0 (fun b => m (c, b)) (Proc.devRef .tc main_v25) = _
  after_results_simp
  rfl

/-- Row `P` of the user column is user `P`'s mask bit, as a number. -/
theorem userCol_apply (c : Dev nD) (P : Fin 8192) :
    (V m c main_v23 : S8192x1.Idx → Ideal .f32) (Idealize.ShloMosaic.ValueIdx.ix2 P (0 : Fin 1))
      = Cert.MaskedGram.bit (userMask (m ((c : Thread nD τ).loc main_arg2)) (Idealize.ShloMosaic.ValueIdx.ix1 P)) := by
  rw [userCol m c]
  exact Cert.Lib.Keepdims.castCol_apply _ _ P

/-- Row `Q` of the item column is item `Q`'s mask bit, as a number. -/
theorem itemCol_apply (c : Dev nD) (Q : Fin 16384) :
    (V m c main_v25 : S16384x1.Idx → Ideal .f32) (Idealize.ShloMosaic.ValueIdx.ix2 Q (0 : Fin 1))
      = Cert.MaskedGram.bit (itemMask (m ((c : Thread nD τ).loc main_arg2)) (Idealize.ShloMosaic.ValueIdx.ix1 Q)) := by
  rw [itemCol m c]
  exact Cert.Lib.Keepdims.castCol_apply _ _ Q

end Cert.KernelIdeal.HostSide

end
-- ==== Proof.Blocks.lean ====
/-
  From the 64 blocks to the whole first result.

  The region's grid is 8 × 8. At point (bi, bj) the body holds user rows bi·1024 … bi·1024 + 1023 with their mask
  column, item rows bj·2048 … bj·2048 + 2047 with theirs, and writes the [1024, 2048] block at block index (bi, bj) of
  the [8192, 16384] result. Entry (p, q) of that block is the inner product of the scaled user row bi·1024 + p and
  the scaled item row bj·2048 + q — entry (bi·1024 + p, bj·2048 + q) of the masked Gram matrix. So each point writes
  back its own block of ONE whole-array function; the 64 blocks tile the array (row r lies in block row r / 1024,
  column s in block column s / 2048); hence the array ends holding that function.
-/
import proofs.«171323_j6665789243440_1_alg».proof.Proof.Gen.KernelIdeal.Frame
import proofs.«171323_j6665789243440_1_alg».proof.Proof.Payload
import proofs.«171323_j6665789243440_1_alg».proof.Proof.Masks
import proofs.«171323_j6665789243440_1_alg».proof.Proof.Spec
import Idealize.ShloMosaic.Lib.Pipeline.Value
import Idealize.ShloMosaic.Lib.ValueIdx

noncomputable section

open scoped BigOperators

namespace Cert.KernelIdeal.PredValue

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.HostSide (userMask itemMask)

variable (m : (ℓ : Loc nD τ sig) → Buf (Elt Ideal) ℓ)

/-- The masked Gram matrix of the launched arguments. -/
abbrev gram (c : Dev nD) : S8192x16384.Idx → Ideal .f32 :=
  Cert.MaskedGram.pred (m ((c : Thread nD τ).loc main_arg0)) (m ((c : Thread nD τ).loc main_arg1))
    (userMask (m ((c : Thread nD τ).loc main_arg2))) (itemMask (m ((c : Thread nD τ).loc main_arg2)))

/-- One entry of one block: if the body's user block holds rows of `x` around row `P`, its item block rows of `y`
    around row `Q`, and the two columns the mask bits of those rows, then entry (p, q) of what the body stores is
    entry (P, Q) of the masked Gram matrix. -/
theorem block_entry
    (x : FVec Ideal ⟨2, ![8192, 64]⟩ .f32) (y : FVec Ideal ⟨2, ![16384, 64]⟩ .f32)
    (μ : IVec ⟨1, ![8192]⟩ 1) (ν : IVec ⟨1, ![16384]⟩ 1)
    (xu : Vec Ideal S1024x64 .f32) (cu : Vec Ideal S1024x1 .f32) (xi : Vec Ideal S2048x64 .f32) (ci : Vec Ideal S2048x1 .f32)
    (p : Fin 1024) (q : Fin 2048) (P : Fin 8192) (Q : Fin 16384)
    (hxu : ∀ k : Fin 64, xu (ix2 p k) = x (ix2 P k))
    (hcu : cu (ix2 p (0 : Fin 1)) = Cert.MaskedGram.bit (μ (ix1 P)))
    (hxi : ∀ k : Fin 64, xi (ix2 q k) = y (ix2 Q k))
    (hci : ci (ix2 q (0 : Fin 1)) = Cert.MaskedGram.bit (ν (ix1 Q))) :
    k0_pay1 (F := Ideal) xu cu xi ci (ix2 p q) = Cert.MaskedGram.pred x y μ ν (ix2 P Q) := by
  rw [Cert.KernelIdeal.BlockProduct.pay_apply, Cert.MaskedGram.pred_apply]
  unfold Cert.MaskedGram.entry
  refine Finset.sum_congr rfl fun k _ => ?_
  rw [hxu k, hcu, hxi k, hci]

theorem zero_offsets : (![0, 0] : Fin 2 → Nat) = fun _ => 0 := funext fun a => by fin_cases a <;> rfl

/-- The printed index maps, decided over the 64 points: the user-side windows follow the output's block row, the
    item-side windows its block column, none moves along its second axis, and the output's block indices stay
    below 8. -/
theorem index_maps : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (1 : Fin 2) ∧ win0_3.index t (1 : Fin 2) = 0
    ∧ win0_4.index t (0 : Fin 2) ≤ 7 ∧ win0_4.index t (1 : Fin 2) ≤ 7 :=
  (by decide +kernel : ∀ t : Fin grid0.N, _)

/-- Every block index (bi, bj) of the 8 × 8 box is some point's. -/
theorem index_onto : ∀ (bi : Fin 8) (bj : Fin 8), ∃ t : Fin cfg0.N, win0_4.index t = ![bi.val, bj.val] :=
  (by decide +kernel : ∀ (bi : Fin 8) (bj : Fin 8), ∃ t : Fin grid0.N, win0_4.index t = ![bi.val, bj.val])

/-- What point `t` writes back is block `t` of the masked Gram matrix. -/
theorem flushed_eq (c : Dev nD) (t : Fin cfg0.N) :
    (dats m 0 c).flushed 4 t = ((cfg0.win 4).blk t).view.read (Elt Ideal) (gram m c) := by
  show (cfg0.win 4).cut (grid0.coords t) ((dats m 0 c).after 4 t) = _
  rw [after0_4]
  unfold out0_4
  rw [View.canon_unit_zero zero_offsets]
  simp only [View.ld_unit_zero (S := S1024x64) zero_offsets, View.ld_unit_zero (S := S1024x1) zero_offsets,
    View.ld_unit_zero (S := S2048x64) zero_offsets, View.ld_unit_zero (S := S2048x1) zero_offsets]
  obtain ⟨e0, z0, e1, z1, e2, z2, e3, z3, b0, b1⟩ := index_maps t
  funext j
  obtain ⟨p, q, rfl⟩ : ∃ (p : Fin 1024) (q : Fin 2048), j = ix2 p q := ⟨j 0, j 1, eq_ix2 j⟩
  have hp : p.val < 1024 := p.isLt
  have hq : q.val < 2048 := q.isLt
  have hP : win0_4.index t (0 : Fin 2) * 1024 + p.val < 8192 := by omega
  have hQ : win0_4.index t (1 : Fin 2) * 2048 + q.val < 16384 := by omega
  have hemb : ((cfg0.win 4).blk t).view.emb (ix2 p q) = ix2 (⟨_, hP⟩ : Fin 8192) (⟨_, hQ⟩ : Fin 16384) := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 2048 + 1 * q.val = win0_4.index t (1 : Fin 2) * 2048 + q.val; omega
  show k0_pay1 (F := Ideal) (iblk m c 0 t) (iblk m c 2 t) (iblk m c 1 t) (iblk m c 3 t) (ix2 p q)
    = gram m c (((cfg0.win 4).blk t).view.emb (ix2 p q))
  refine (block_entry (m ((c : Thread nD τ).loc main_arg0)) (m ((c : Thread nD τ).loc main_arg1))
    (userMask (m ((c : Thread nD τ).loc main_arg2))) (itemMask (m ((c : Thread nD τ).loc main_arg2)))
    (iblk m c 0 t) (iblk m c 2 t) (iblk m c 1 t) (iblk m c 3 t) p q ⟨_, hP⟩ ⟨_, hQ⟩ ?_ ?_ ?_ ?_).trans
    (congrArg (gram m c) hemb.symm)
  · intro k
    show V m c main_arg0 (((cfg0.win 0).blk t).view.emb (ix2 p k)) = _
    rw [V_main_arg0 m c]
    refine congrArg _ (funext fun a => Fin.ext ?_)
    match a with
    | ⟨0, _⟩ => show win0_0.index t (0 : Fin 2) * 1024 + 1 * p.val = win0_4.index t (0 : Fin 2) * 1024 + p.val; omega
    | ⟨1, _⟩ => show win0_0.index t (1 : Fin 2) * 64 + 1 * k.val = k.val; omega
  · show V m c main_v23 (((cfg0.win 2).blk t).view.emb (ix2 p (0 : Fin 1))) = _
    have e : ((cfg0.win 2).blk t).view.emb (ix2 p (0 : Fin 1)) = ix2 (⟨_, hP⟩ : Fin 8192) (0 : Fin 1) := by
      funext a; apply Fin.ext
      match a with
      | ⟨0, _⟩ => show win0_2.index t (0 : Fin 2) * 1024 + 1 * p.val = win0_4.index t (0 : Fin 2) * 1024 + p.val; omega
      | ⟨1, _⟩ => show win0_2.index t (1 : Fin 2) * 1 + 1 * 0 = 0; omega
    rw [e]
    exact Cert.KernelIdeal.HostSide.userCol_apply m c _
  · intro k
    show V m c main_arg1 (((cfg0.win 1).blk t).view.emb (ix2 q k)) = _
    rw [V_main_arg1 m c]
    refine congrArg _ (funext fun a => Fin.ext ?_)
    match a with
    | ⟨0, _⟩ => show win0_1.index t (0 : Fin 2) * 2048 + 1 * q.val = win0_4.index t (1 : Fin 2) * 2048 + q.val; omega
    | ⟨1, _⟩ => show win0_1.index t (1 : Fin 2) * 64 + 1 * k.val = k.val; omega
  · show V m c main_v25 (((cfg0.win 3).blk t).view.emb (ix2 q (0 : Fin 1))) = _
    have e : ((cfg0.win 3).blk t).view.emb (ix2 q (0 : Fin 1)) = ix2 (⟨_, hQ⟩ : Fin 16384) (0 : Fin 1) := by
      funext a; apply Fin.ext
      match a with
      | ⟨0, _⟩ => show win0_3.index t (0 : Fin 2) * 2048 + 1 * q.val = win0_4.index t (1 : Fin 2) * 2048 + q.val; omega
      | ⟨1, _⟩ => show win0_3.index t (1 : Fin 2) * 1 + 1 * 0 = 0; omega
    rw [e]
    exact Cert.KernelIdeal.HostSide.itemCol_apply m c _

/-- An index of the array is in point `t`'s block iff each coordinate is in the block's range on its axis. -/
theorem mem_block (t : Fin cfg0.N) (i : S8192x16384.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v26).slice (win0_4.rect t)).set ↔ _
  rw [View.set_slice_whole, Rect.mem_set_unit]
  exact Iff.rfl

/-- Every index of the array lies in some point's block: row r in block row r / 1024, column s in block column
    s / 2048. -/
theorem blocks_cover (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  obtain ⟨t, ht⟩ := index_onto ⟨(i 0).val / 1024, by omega⟩ ⟨(i 1).val / 2048, by omega⟩
  have q0 : win0_4.index t (0 : Fin 2) = (i 0).val / 1024 := congrFun ht 0
  have q1 : win0_4.index t (1 : Fin 2) = (i 1).val / 2048 := congrFun ht 1
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 2048 ≤ (i 1).val ∧ (i 1).val < win0_4.index t (1 : Fin 2) * 2048 + 2048
    omega

/-- The first result's array after the run is the masked Gram matrix of the launched arguments. -/
theorem final (c : Dev nD) : (dats m 0 c).arrAt 4 cfg0.N = gram m c :=
  (dats m 0 c).arrAt_eq_of_cover 4 (gram m c) (fun t _ => flushed_eq m c t) blocks_cover

end Cert.KernelIdeal.PredValue

end
-- ==== Proof.Tail.lean ====
/-
  The two results the host computes after the region.

  `label`: the ratings scatter-added into a zero [8192, 16384] array at the (user, item) pairs the index array lists
  (negative coordinates counted from the end; pairs listed twice add up). `ratio`: a constant. Neither reads
  anything the region wrote: the scatter reads only the index array and the ratings, which the region leaves as
  launched. Operation for operation the scatter is the reference's, so it is named by the reference's own stage.
-/
import proofs.«171323_j6665789243440_1_alg».proof.Proof.Gen.KernelIdeal.Frame
import proofs.«171323_j6665789243440_1_alg».proof.Proof.Gen.ReferenceIdeal.Read
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- After the region the index array is still as launched. -/
theorem tail_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- And so are the ratings. -/
theorem tail_arg3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- Whatever the buffers hold when the tail starts, `label` ends as the scatter-add of the ratings found there at
    the index pairs found there. -/
theorem label_of (W : Valuation τ sig (Elt Ideal)) :
    StableHlo.after hostOps1 W (Proc.devRef .tc main_v45)
      = Cert.ReferenceIdeal.Read.val_main_v49 (F := Ideal) (W (Proc.devRef .tc main_arg2)) (W (Proc.devRef .tc main_arg3)) := by
  after_results_simp
  rfl

/-- `label` is the scatter-add of the launched ratings at the launched index pairs. -/
theorem label_eq (c : Dev nD) :
    Pipeline.afterTail₀ cfgs (dats m) 0 (V0 m) [hostOps1] c main_v45
      = Cert.ReferenceIdeal.Read.val_main_v49 (F := Ideal) (m ((c : Thread nD τ).loc main_arg2)) (m ((c : Thread nD τ).loc main_arg3)) := by
  unfold Pipeline.afterTail₀
  show StableHlo.after hostOps1 _ (Proc.devRef .tc main_v45) = _
  refine (label_of _).trans ?_
  rw [tail_arg2 m c, tail_arg3 m c]

/-- `ratio` is its constant. -/
theorem ratio_eq (c : Dev nD) :
    Pipeline.afterTail₀ cfgs (dats m) 0 (V0 m) [hostOps1] c main_cst_11 = constant (F := Ideal) S_ .f32 0x4427C5AC#32 := by
  unfold Pipeline.afterTail₀
  show StableHlo.after hostOps1 _ (Proc.devRef .tc main_cst_11) = _
  after_results_simp <;> rfl

end Cert.KernelIdeal.HostSide

end
-- ==== Proof.KernelRun.lean ====
/-
  The idealized kernel's run, with its three results named.

  Every weakly fair execution ends with the first result's array at the masked Gram matrix of the launched
  arguments (the region's 64 blocks, put together), the second at the scatter-add of the launched ratings at the
  launched index pairs and the third at its constant (both written by the host after the region), and the four
  argument arrays as launched.
-/
import proofs.«171323_j6665789243440_1_alg».proof.Proof.Gen.KernelIdeal.Frame
import proofs.«171323_j6665789243440_1_alg».proof.Proof.Blocks
import proofs.«171323_j6665789243440_1_alg».proof.Proof.Tail

noncomputable section

namespace Cert.KernelIdeal.PredValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The scatter-add of the launched ratings at the launched index pairs. -/
abbrev label (c : Dev nD) : S8192x16384.Idx → Ideal .f32 :=
  Cert.ReferenceIdeal.Read.val_main_v49 (F := Ideal) (m ((c : Thread nD τ).loc main_arg2)) (m ((c : Thread nD τ).loc main_arg3))

theorem run : θ_run defs (onTc (τ := τ) (main (F := Ideal))) ⟨m, fun _ => 0, ρ⟩ fun r => ∀ c : Dev nD,
      r.2.mem ((c : Thread nD τ).loc main_v26) = gram m c
      ∧ r.2.mem ((c : Thread nD τ).loc main_v45) = label m c
      ∧ r.2.mem ((c : Thread nD τ).loc main_cst_11) = constant (F := Ideal) S_ .f32 0x4427C5AC#32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).1 4).trans (final m c),
      ((h c).2 main_v45 (Pipeline.mem_restRefs_of main_v45 (by decide) (by decide))).trans (Cert.KernelIdeal.HostSide.label_eq m c),
      ((h c).2 main_cst_11 (Pipeline.mem_restRefs_of main_cst_11 (by decide) (by decide))).trans (Cert.KernelIdeal.HostSide.ratio_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.PredValue

end
-- ==== Proof.lean ====
/-
  The kernel against its reference: a masked Gram matrix, a scatter-added label array and a constant.

  Both programs build, from the two rows of an index array, a one-bit mask over the 8192 users and one over the 16384
  items, switch whole rows of the two embedding matrices on or off by them, and return (1) the [8192, 16384] matrix of
  inner products of the masked rows, (2) the ratings scatter-added into a zero array at the listed (user, item) pairs,
  (3) a constant. The reference does (1) on the host by one contraction of the two masked matrices; the kernel does it
  on an 8 × 8 grid, one [1024, 2048] block per point, each block the product of a masked user block by the transpose
  of a masked item block into a zero accumulator, after a change of float format that changes no value on the
  extended reals. Entry (p, q) is on both sides the same sum over the 64 hidden coordinates of the same products in
  the same order, so the two agree with no appeal to finiteness; (2) and (3) are the same host operations on both
  sides. The idealization rewrote nothing, so that conjunct is trivial; the three frames are the generated ones (the
  reference's is its generated run with the results dropped).
-/
import proofs.«171323_j6665789243440_1_alg».proof.Defs
import proofs.«171323_j6665789243440_1_alg».proof.Proof.Gen.Kernel
import proofs.«171323_j6665789243440_1_alg».proof.Proof.Gen.Kernel.Skeleton
import proofs.«171323_j6665789243440_1_alg».proof.Proof.Gen.Kernel.Launch
import proofs.«171323_j6665789243440_1_alg».proof.Proof.Gen.Kernel.Points
import proofs.«171323_j6665789243440_1_alg».proof.Proof.Gen.Kernel.Frame
import proofs.«171323_j6665789243440_1_alg».proof.Proof.Gen.KernelIdeal
import proofs.«171323_j6665789243440_1_alg».proof.Proof.Gen.KernelIdeal.Skeleton
import proofs.«171323_j6665789243440_1_alg».proof.Proof.Gen.KernelIdeal.Launch
import proofs.«171323_j6665789243440_1_alg».proof.Proof.Gen.KernelIdeal.Points
import proofs.«171323_j6665789243440_1_alg».proof.Proof.Gen.KernelIdeal.Frame
import proofs.«171323_j6665789243440_1_alg».proof.Proof.Gen.ReferenceIdeal
import proofs.«171323_j6665789243440_1_alg».proof.Proof.Gen.ReferenceIdeal.Run
import proofs.«171323_j6665789243440_1_alg».proof.Proof.Gen.ReferenceIdeal.Read
import proofs.«171323_j6665789243440_1_alg».proof.Proof.Gen.Pre_finite_inputs
import proofs.«171323_j6665789243440_1_alg».proof.Proof.RefPred
import proofs.«171323_j6665789243440_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the four arguments, both programs end with the same three results: the reference's
    contraction stage is the masked Gram matrix of its arguments, its scatter-add and its constant are the terms the
    kernel's host tail leaves, and the arguments are the kernel's. -/
theorem algebraic : Cert.algebraic_KernelIdeal_ReferenceIdeal := by
  intro m ρ m' ρ' _ hagree
  refine ⟨fun c => Cert.KernelIdeal.PredValue.gram m c, fun c => Cert.KernelIdeal.PredValue.label m c,
    fun _ => constant (F := Ideal) Cert.KernelIdeal.S_ .f32 0x4427C5AC#32, Cert.KernelIdeal.PredValue.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3⟩ := hagree c
  refine ⟨h0.trans ?_, h1.trans ?_, h2, hargs⟩
  · rw [Cert.ReferenceIdeal.Read.val_main_v30_eq, Cert.ReferenceIdeal.RefValue.pred_eq, a0, a1, a2]
  · rw [Cert.ReferenceIdeal.Read.val_main_v49_eq, a2, a3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
